-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x4096 32) (main_arg2 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  main_v8
-- ==== Kernel.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S_ : Shape := ⟨0, ![]⟩
abbrev S11264x4096 : Shape := ⟨2, ![11264, 4096]⟩
abbrev S11264 : Shape := ⟨1, ![11264]⟩
abbrev S11264x1 : Shape := ⟨2, ![11264, 1]⟩
abbrev S8192x11264 : Shape := ⟨2, ![8192, 11264]⟩
abbrev S2048x128 : Shape := ⟨2, ![2048, 128]⟩
abbrev S1024x128 : Shape := ⟨2, ![1024, 128]⟩
abbrev S1024x1 : Shape := ⟨2, ![1024, 1]⟩
abbrev S2048x1024 : Shape := ⟨2, ![2048, 1024]⟩
abbrev S8192x11008 : Shape := ⟨2, ![8192, 11008]⟩
abbrev S4x2048x11008 : Shape := ⟨3, ![4, 2048, 11008]⟩

abbrev nBuf : Space → Nat
  | .hbm => 14
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S8192x4096, .f32⟩
  | .hbm, ⟨4, _⟩ => ⟨S_, .i32⟩
  | .hbm, ⟨5, _⟩ => ⟨S_, .i32⟩
  | .hbm, ⟨6, _⟩ => ⟨S11264x4096, .i32⟩
  | .hbm, ⟨7, _⟩ => ⟨S_, .i32⟩
  | .hbm, ⟨8, _⟩ => ⟨S_, .f32⟩
  | .hbm, ⟨9, _⟩ => ⟨S11264, .f32⟩
  | .hbm, ⟨10, _⟩ => ⟨S11264x1, .f32⟩
  | .hbm, ⟨11, _⟩ => ⟨S8192x11264, .f32⟩
  | .hbm, ⟨12, _⟩ => ⟨S8192x11008, .f32⟩
  | .hbm, ⟨13, _⟩ => ⟨S4x2048x11008, .f32⟩
  | .local _ .vmem, ⟨0, _⟩ => ⟨S2048x128, .f32⟩
  | .local _ .vmem, ⟨1, _⟩ => ⟨S2048x128, .f32⟩
  | .local _ .vmem, ⟨2, _⟩ => ⟨S1024x128, .i32⟩
  | .local _ .vmem, ⟨3, _⟩ => ⟨S1024x128, .i32⟩
  | .local _ .vmem, ⟨4, _⟩ => ⟨S1024x1, .f32⟩
  | .local _ .vmem, ⟨5, _⟩ => ⟨S1024x1, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 11, 32], ![false, false, false]⟩

def k0_cond2 (i : grid0.Coords) : BitVec 1 :=
  let arg2 : BitVec 32 := BitVec.ofNat 32 (i 2).val
  let c31_i32 : BitVec 32 := 31#32
  let v20 : BitVec 1 := Scalar.cmpi .eq arg2 c31_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  pads_S11008x4096_S11264x4096_02560_000 : S11008x4096.Pads (![0, 0] : Fin 2 → Nat) ![256, 0] ![0, 0] S11264x4096
  h_S_ : 0 < S_.numel
  pads_S11008_S11264_02560 : S11008.Pads (![0] : Fin 1 → Nat) ![256] ![0] S11264
  shapeCasts_S11264_S11264x1 : S11264.ShapeCasts S11264x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  slices_S8192x11264_S8192x11008_0_0 : S8192x11264.Slices ![0, 0] S8192x11008
  shapeCasts_S8192x11008_S4x2048x11008 : S8192x11008.ShapeCasts S4x2048x11008
  dot_S2048x128_S1024x128_S2048x1024_1_1_0_0_n_n_wf : DotDims.WF S2048x128 S1024x128 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x4096.size a
  hwx0_0 : ∀ i : grid0.Coords, EltTy.bits .f32 = 32 ∨ (Rect.block (s := S8192x4096) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S11264x4096.size a
  hwx0_1 : ∀ i : grid0.Coords, EltTy.bits .i32 = 32 ∨ (Rect.block (s := S11264x4096) S1024x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S11264x1.size a
  hwx0_2 : ∀ i : grid0.Coords, EltTy.bits .f32 = 32 ∨ (Rect.block (s := S11264x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x11264.size a
  hwx0_3 : ∀ i : grid0.Coords, EltTy.bits .f32 = 32 ∨ (Rect.block (s := S8192x11264) S2048x1024.size (cc0_transform_3 i) (hinb0_3 i)).WholeWords (EltTy.packing .f32)

variable [Facts₀]

def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S11008x1 : Shape := ⟨2, ![11008, 1]⟩
abbrev S4x2048x11008 : Shape := ⟨3, ![4, 2048, 11008]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008x4096, .f32⟩
  | .hbm, ⟨4, _⟩ => ⟨S11008x1, .f32⟩
  | .hbm, ⟨5, _⟩ => ⟨S11008x4096, .f32⟩
  | .hbm, ⟨6, _⟩ => ⟨S11008x4096, .f32⟩
  | .hbm, ⟨7, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Pieces.lean ====
/-
  What one grid point's body leaves behind, as values. The body keeps a running total in a scratch block of 2048 x 1024
  entries: at the first step of a reduction (k = 0) it first stores the zero block there; at every step it reads the
  total `acc`, the activation block `x` (2048 x 128), the integer weight block `w` (1024 x 128) and the column of
  scales `s` (1024 x 1), and stores `step x w s acc` (the generated payload: `acc + x · (float w * s)ᵀ`); at the last
  step (k = 31) it copies the total into the output block. So, whatever the float values:
    first step : scratch = step x w s zero
    other steps: scratch = step x w s (previous scratch)
    last step  : output  = the same value as the scratch.
-/
import proofs.«115999_j91147795955912_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Linear

open Cert.KernelIdeal Cert.KernelIdeal.Gen

variable {F : FTy → Type} [FloatOps F]

theorem offsets_zero : (![0, 0] : Fin 2 → Nat) = fun _ => 0 := funext fun a => by fin_cases a <;> rfl

/-- A middle step: the scratch ends at the step's value over what it held. -/
theorem scratch_mid (c : Dev nD) (i : grid0.Coords) (arg3 : Memref sig .tc .vmem S2048x128 .f32) (harg3 : arg3.IsWhole) (arg4 : Memref sig .tc .vmem S1024x128 .i32) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x128 .f32) (x1 : Vec F S1024x128 .i32) (x2 : Vec F S1024x1 .f32) (acc : Vec F S2048x1024 .f32) :
    sout0_B_0 c i arg3 harg3 arg4 harg4 arg5 harg5 arg6 harg6 arg7 harg7 hc0 hc1 x0 x1 x2 acc = k0_pay2 x0 x1 x2 acc := by
  unfold sout0_B_0
  rw [View.read_writes_eq_canon _ _ _ (scover0_B_0 c i arg3 harg3 arg4 harg4 arg5 harg5 arg6 harg6 arg7 harg7 hc0 hc1 x0 x1 x2 acc)]
  unfold kernelRun0_B
  dsimp only
  rw [View.canon_unit_zero offsets_zero]
  simp only [View.readAt_eq_ld, harg3.read_unread, harg4.read_unread, harg5.read_unread, harg7.read_unread, View.ld_unit_zero (S := S2048x128) offsets_zero, View.ld_unit_zero (S := S1024x128) offsets_zero, View.ld_unit_zero (S := S1024x1) offsets_zero, View.ld_unit_zero (S := S2048x1024) offsets_zero]

/-- The last step: the scratch ends at the step's value over what it held, -/
theorem scratch_last (c : Dev nD) (i : grid0.Coords) (arg3 : Memref sig .tc .vmem S2048x128 .f32) (harg3 : arg3.IsWhole) (arg4 : Memref sig .tc .vmem S1024x128 .i32) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x128 .f32) (x1 : Vec F S1024x128 .i32) (x2 : Vec F S1024x1 .f32) (acc : Vec F S2048x1024 .f32) :
    sout0_C_0 c i arg3 harg3 arg4 harg4 arg5 harg5 arg6 harg6 arg7 harg7 hc0 hc1 x0 x1 x2 acc = k0_pay2 x0 x1 x2 acc := by
  unfold sout0_C_0
  rw [View.read_writes_eq_canon _ _ _ (scover0_C_0 c i arg3 harg3 arg4 harg4 arg5 harg5 arg6 harg6 arg7 harg7 hc0 hc1 x0 x1 x2 acc)]
  unfold kernelRun0_C
  dsimp only
  sl_unfold_words
  rw [View.canon_unit_zero offsets_zero]
  simp only [View.readAt_eq_ld, harg3.read_unread, harg4.read_unread, harg5.read_unread, harg7.read_unread, View.ld_unit_zero (S := S2048x128) offsets_zero, View.ld_unit_zero (S := S1024x128) offsets_zero, View.ld_unit_zero (S := S1024x1) offsets_zero, View.ld_unit_zero (S := S2048x1024) offsets_zero]

/-- and the output block is a copy of it. -/
theorem out_last (c : Dev nD) (i : grid0.Coords) (arg3 : Memref sig .tc .vmem S2048x128 .f32) (harg3 : arg3.IsWhole) (arg4 : Memref sig .tc .vmem S1024x128 .i32) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x128 .f32) (x1 : Vec F S1024x128 .i32) (x2 : Vec F S1024x1 .f32) (acc : Vec F S2048x1024 .f32) :
    out0_C_3 c i arg3 harg3 arg4 harg4 arg5 harg5 arg6 harg6 arg7 harg7 hc0 hc1 x0 x1 x2 acc = k0_pay2 x0 x1 x2 acc := by
  unfold out0_C_3
  rw [View.read_writes_eq_canon _ _ _ (cover0_C_3 c i arg3 harg3 arg4 harg4 arg5 harg5 arg6 harg6 arg7 harg7 hc0 hc1 x0 x1 x2 acc)]
  unfold kernelRun0_C
  dsimp only
  sl_unfold_words
  rw [View.canon_unit_zero offsets_zero, View.readCov_unit_zero (S := S2048x1024) _ offsets_zero]
  simp only [View.readAt_eq_ld, harg3.read_unread, harg4.read_unread, harg5.read_unread, harg7.read_unread, View.ld_unit_zero (S := S2048x128) offsets_zero, View.ld_unit_zero (S := S1024x128) offsets_zero, View.ld_unit_zero (S := S1024x1) offsets_zero, View.ld_unit_zero (S := S2048x1024) offsets_zero]

/-- The first step: the zero block is stored, read back, and the scratch ends at the step's value over it. -/
theorem scratch_first (c : Dev nD) (i : grid0.Coords) (arg3 : Memref sig .tc .vmem S2048x128 .f32) (harg3 : arg3.IsWhole) (arg4 : Memref sig .tc .vmem S1024x128 .i32) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x128 .f32) (x1 : Vec F S1024x128 .i32) (x2 : Vec F S1024x1 .f32) :
    sout0_A_0 c i arg3 harg3 arg4 harg4 arg5 harg5 arg6 harg6 arg7 harg7 hc0 hc1 x0 x1 x2 = k0_pay2 x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) offsets_zero, View.readCov_unit_zero (S := S2048x1024) _ offsets_zero]
  simp only [View.readAt_eq_ld, harg3.read_unread, harg4.read_unread, harg5.read_unread, harg7.read_unread, View.ld_unit_zero (S := S2048x128) offsets_zero, View.ld_unit_zero (S := S1024x128) offsets_zero, View.ld_unit_zero (S := S1024x1) offsets_zero, View.ld_unit_zero (S := S2048x1024) offsets_zero]

end Cert.KernelIdeal.Linear

end
-- ==== Proof.Payload.lean ====
/-
  One step of the running total, read at one entry over the extended reals (where a change of float format is the
  identity and the matrix unit's product into a zero accumulator is the plain sum of products):

      step x w s acc (p, q) = acc (p, q) + ∑ kk < 128, x (p, kk) * (float (w (q, kk)) * s (q, 0)),

  for the activation block `x` (2048 x 128), the weight block `w` (1024 x 128 integers) and the scale column `s`
  (1024 x 1, spread along each row before the product). The block the first step starts from is zero at every entry.
-/
import proofs.«115999_j91147795955912_1_alg».proof.Proof.Gen.KernelIdeal.Skeleton
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Linear

open Cert.KernelIdeal Cert.KernelIdeal.Gen

/-- The contraction of the step's product: axis 1 of the activation block against axis 1 of the weight block. -/
abbrev blockDot : DotDims S2048x128 S1024x128 S2048x1024 := dot_S2048x128_S1024x128_S2048x1024_1_1_0_0_n_n

theorem lhs_row (i : S2048x1024.Idx) (k : blockDot.contr.Idx) : (blockDot.lhsIdx i k 0).val = (i 0).val := by
  unfold DotDims.lhsIdx
  rw [dif_neg (show ¬(0 : Fin S2048x128.rank) ∈ blockDot.lhsBatch by decide), dif_pos (show (0 : Fin S2048x128.rank) ∈ blockDot.lhsNonContracting by decide)]
  rfl
theorem lhs_depth (i : S2048x1024.Idx) (k : blockDot.contr.Idx) : (blockDot.lhsIdx i k 1).val = (k ⟨0, by decide⟩).val :=
  blockDot.lhsIdx_val_of_single rfl i k
theorem rhs_row (i : S2048x1024.Idx) (k : blockDot.contr.Idx) : (blockDot.rhsIdx i k 0).val = (i 1).val := by
  unfold DotDims.rhsIdx
  rw [dif_neg (show ¬(0 : Fin S1024x128.rank) ∈ blockDot.rhsBatch by decide), dif_pos (show (0 : Fin S1024x128.rank) ∈ blockDot.rhsNonContracting by decide)]
  rfl
theorem rhs_depth (i : S2048x1024.Idx) (k : blockDot.contr.Idx) : (blockDot.rhsIdx i k 1).val = (k ⟨0, by decide⟩).val :=
  blockDot.rhsIdx_val_of_single rfl i k

/-- The product of two blocks into the zero accumulator, at entry `(p, q)`: row `p` of the left block against row `q`
    of the right block. -/
theorem blockDot_apply (l : FVec Ideal S2048x128 .bf16) (r : FVec Ideal S1024x128 .bf16) (p : Fin 2048) (q : Fin 1024) :
    FloatOps.matmul blockDot none l r (constant (F := Ideal) S2048x1024 .f32 0x00000000#32) (ix2 p q)
      = ∑ kk : Fin 128, l (ix2 p kk) * r (ix2 q kk) := by
  refine (Ideal.matmul_constant_zero_apply blockDot none l r (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_depth _ _).trans hk)
  have er : blockDot.rhsIdx (ix2 p q) ((contrEquiv1 blockDot 128 rfl rfl).symm k) = ix2 q k := funext fun a => Fin.ext (by
    match a with
    | ⟨0, _⟩ => exact rhs_row _ _
    | ⟨1, _⟩ => exact (rhs_depth _ _).trans hk)
  rw [el, er]

/-- The scale column spread along a row: entry `(q, kk)` is the column's entry `(q, 0)`. -/
theorem spread_apply (s : FVec Ideal S1024x1 .f32) (q : Fin 1024) (kk : Fin 128) :
    broadcastTo S1024x128 s broadcasts_S1024x1_S1024x128 (ix2 q kk) = s (ix2 q ⟨0, Nat.one_pos⟩) :=
  broadcastTo_apply s broadcasts_S1024x1_S1024x128 (ix2 q kk) (ix2 q ⟨0, Nat.one_pos⟩) (fun a => by
    match a with
    | ⟨0, _⟩ => show q.val = if (1024 : Nat) = 1 then 0 else q.val; rw [if_neg (by decide)]
    | ⟨1, _⟩ => show 0 = if (1 : Nat) = 1 then 0 else kk.val; rw [if_pos rfl])

/-- The block the first step starts from is zero everywhere. -/
theorem zero_apply (j : S2048x1024.Idx) : k0_pay1 (F := Ideal) j = 0 := by
  unfold k0_pay1
  rw [shapeCast_self]
  exact Ideal.ofBits_zero_f32

/-- One step at entry `(p, q)`. -/
theorem step_apply (x : Vec Ideal S2048x128 .f32) (w : Vec Ideal S1024x128 .i32) (s : Vec Ideal S1024x1 .f32)
    (acc : Vec Ideal S2048x1024 .f32) (p : Fin 2048) (q : Fin 1024) :
    k0_pay2 x w s acc (ix2 p q)
      = acc (ix2 p q) + ∑ kk : Fin 128, x (ix2 p kk) * (FloatOps.sitofp (F := Ideal) .f32 (w (ix2 q kk)) * s (ix2 q ⟨0, Nat.one_pos⟩)) := by
  unfold k0_pay2
  simp only [shapeCast_self]
  refine congrArg (acc (ix2 p q) + ·) ((blockDot_apply _ _ p q).trans (Finset.sum_congr rfl fun kk _ => ?_))
  exact congrArg (fun z => x (ix2 p kk) * (FloatOps.sitofp (F := Ideal) .f32 (w (ix2 q kk)) * z)) (spread_apply s q kk)

end Cert.KernelIdeal.Linear

end
-- ==== Proof.Blocks.lean ====
/-
  Where a grid point's input blocks sit in their arrays. The grid has 4 x 11 x 32 points, numbered row-major: point `t`
  works on row tile `t / 32 / 11` (2048 rows of the activations), column tile `t / 32 % 11` (1024 weight rows) and
  reduction step `t % 32` (128 consecutive depths). Entry `(p, kk)` of its activation block is the array's entry
  `(2048 * (t / 32 / 11) + p, 128 * (t % 32) + kk)`; entry `(q, kk)` of its weight block is
  `(1024 * (t / 32 % 11) + q, 128 * (t % 32) + kk)`; entry `(q, 0)` of its scale block is `(1024 * (t / 32 % 11) + q, 0)`.
-/
import proofs.«115999_j91147795955912_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Linear

open Cert.KernelIdeal Cert.KernelIdeal.Gen

variable {F : FTy → Type} [FloatOps F]
variable (m : (ℓ : Loc nD τ sig) → Buf (Elt F) ℓ)

/-- The four index maps at point `t`, decided once over the grid. -/
theorem tile_of_point : ∀ t : Fin cfg0.N,
    win0_0.index t (0 : Fin 2) = t.val / 32 / 11 ∧ win0_0.index t (1 : Fin 2) = t.val % 32
    ∧ win0_1.index t (0 : Fin 2) = t.val / 32 % 11 ∧ win0_1.index t (1 : Fin 2) = t.val % 32
    ∧ win0_2.index t (0 : Fin 2) = t.val / 32 % 11 ∧ win0_2.index t (1 : Fin 2) = 0
    ∧ win0_3.index t (0 : Fin 2) = t.val / 32 / 11 ∧ win0_3.index t (1 : Fin 2) = t.val / 32 % 11 :=
  (by decide +kernel : ∀ t : Fin grid0.N, _)

/-- The activation block at entry `(p, kk)`. -/
theorem x_entry (c : Dev nD) (t : Fin cfg0.N) (p : Fin 2048) (kk : Fin 128) (r : Fin 8192) (k : Fin 4096)
    (hr : r.val = 2048 * (t.val / 32 / 11) + p.val) (hk : k.val = 128 * (t.val % 32) + kk.val) :
    (iblk m c 0 t : Vec F S2048x128 .f32) (ix2 p kk) = (V m c main_v0 : Vec F S8192x4096 .f32) (ix2 r k) := by
  unfold iblk
  rw [View.read_apply]
  show V m c main_v0 _ = V m c main_v0 _
  refine congrArg (V m c main_v0) (funext fun a => Fin.ext ?_)
  match a with
  | ⟨0, _⟩ => show win0_0.index t 0 * 2048 + 1 * p.val = r.val; rw [(tile_of_point t).1, hr]; omega
  | ⟨1, _⟩ => show win0_0.index t 1 * 128 + 1 * kk.val = k.val; rw [(tile_of_point t).2.1, hk]; omega

/-- The weight block at entry `(q, kk)`. -/
theorem w_entry (c : Dev nD) (t : Fin cfg0.N) (q : Fin 1024) (kk : Fin 128) (n : Fin 11264) (k : Fin 4096)
    (hn : n.val = 1024 * (t.val / 32 % 11) + q.val) (hk : k.val = 128 * (t.val % 32) + kk.val) :
    (iblk m c 1 t : Vec F S1024x128 .i32) (ix2 q kk) = (V m c main_v1 : Vec F S11264x4096 .i32) (ix2 n k) := by
  unfold iblk
  rw [View.read_apply]
  show V m c main_v1 _ = V m c main_v1 _
  refine congrArg (V m c main_v1) (funext fun a => Fin.ext ?_)
  match a with
  | ⟨0, _⟩ => show win0_1.index t 0 * 1024 + 1 * q.val = n.val; rw [(tile_of_point t).2.2.1, hn]; omega
  | ⟨1, _⟩ => show win0_1.index t 1 * 128 + 1 * kk.val = k.val; rw [(tile_of_point t).2.2.2.1, hk]; omega

/-- The scale block at entry `(q, 0)`. -/
theorem s_entry (c : Dev nD) (t : Fin cfg0.N) (q : Fin 1024) (n : Fin 11264)
    (hn : n.val = 1024 * (t.val / 32 % 11) + q.val) :
    (iblk m c 2 t : Vec F S1024x1 .f32) (ix2 q ⟨0, Nat.one_pos⟩) = (V m c main_v3 : Vec F S11264x1 .f32) (ix2 n ⟨0, Nat.one_pos⟩) := by
  unfold iblk
  rw [View.read_apply]
  show V m c main_v3 _ = V m c main_v3 _
  refine congrArg (V m c main_v3) (funext fun a => Fin.ext ?_)
  match a with
  | ⟨0, _⟩ => show win0_2.index t 0 * 1024 + 1 * q.val = n.val; rw [(tile_of_point t).2.2.2.2.1, hn]; omega
  | ⟨1, _⟩ => show win0_2.index t 1 * 1 + 1 * 0 = 0; rw [(tile_of_point t).2.2.2.2.2.1]

end Cert.KernelIdeal.Linear

end
-- ==== Proof.LibBlockSum.lean ====
/-
  A sum of `a * b` terms taken in `a` consecutive blocks of `b` terms, in any commutative additive monoid (the extended
  reals included: only commutativity and associativity of `+` are used, so infinite terms are allowed).
-/
import Mathlib.Algebra.BigOperators.Fin

namespace Cert.BlockSum

/-- The sum over `Fin (a * b)` is the sum over the `a` blocks of the sums inside each block: term `k = b * i + j`
    is term `j` of block `i`. -/
theorem sum_blocks {M : Type*} [AddCommMonoid M] (a b : ℕ) (f : ℕ → M) :
    ∑ k : Fin (a * b), f k.val = ∑ i : Fin a, ∑ j : Fin b, f (b * i.val + j.val) := by
  rw [← Fintype.sum_prod_type' (f := fun (i : Fin a) (j : Fin b) => f (b * i.val + j.val))]
  refine (Fintype.sum_equiv finProdFinEquiv _ _ (fun p => ?_)).symm
  simp [finProdFinEquiv, add_comm]

end Cert.BlockSum
-- ==== Proof.Spec.lean ====
/-
  The mathematics of the two programs, with no program in sight.

  `product A W S` is the matrix product the launched region computes over the arrays it is handed: `A` (8192 x 4096,
  the activations with the two leading axes merged), `W` (11264 x 4096 integers, the weights with 256 zero rows appended)
  and `S` (11264 x 1, one scale per weight row):
      product A W S (r, n) = ∑ k < 4096, A (r, k) * (float (W (n, k)) * S (n, 0)).
  The terms are addressed by natural numbers (`cell`, zero outside the arrays) so that the sum can be cut into 32 blocks
  of 128 consecutive terms — the order in which the grid's reduction axis adds them (`product_blocks`). Over the extended
  reals this regrouping needs only that `+` is commutative and associative, so it holds at infinite entries as well.

  `linear x w s` is the result both programs are claimed to end with:
      linear x w s (b, t, n) = ∑ k < 4096, x (b, t, k) * (float (w (n, k)) * s n),
  and `product_eq_linear` reads `product` at row `2048 * b + t` and a column `n < 11008` as that, once `A`, `W`, `S` are
  known to be the merged / extended arguments at those places.
-/
import Idealize.ShloMosaic.PureOps.Ideal.Laws
import Idealize.ShloMosaic.Lib.ValueIdx
import proofs.«115999_j91147795955912_1_alg».proof.Proof.LibBlockSum

noncomputable section

open Idealize.ShloMosaic Idealize.ShloMosaic.ValueIdx

namespace Cert.LinearSpec

abbrev SA : Shape := ⟨2, ![8192, 4096]⟩
abbrev SW : Shape := ⟨2, ![11264, 4096]⟩
abbrev SC : Shape := ⟨2, ![11264, 1]⟩
abbrev SR : Shape := ⟨2, ![8192, 11264]⟩
abbrev SX : Shape := ⟨3, ![4, 2048, 4096]⟩
abbrev SV : Shape := ⟨2, ![11008, 4096]⟩
abbrev SL : Shape := ⟨1, ![11008]⟩
abbrev SO : Shape := ⟨3, ![4, 2048, 11008]⟩

/-- The term of row `r`, column `n`, depth `k`; zero when a coordinate is outside its array. -/
def cell (A : FVec Ideal SA .f32) (W : IVec SW 32) (S : FVec Ideal SC .f32) (r n k : ℕ) : EReal :=
  if h : r < 8192 ∧ n < 11264 ∧ k < 4096 then
    A (ix2 ⟨r, h.1⟩ ⟨k, h.2.2⟩) * (FloatOps.sitofp (F := Ideal) .f32 (W (ix2 ⟨n, h.2.1⟩ ⟨k, h.2.2⟩)) * S (ix2 ⟨n, h.2.1⟩ ⟨0, Nat.one_pos⟩))
  else 0

theorem cell_of_lt (A : FVec Ideal SA .f32) (W : IVec SW 32) (S : FVec Ideal SC .f32) (r : Fin 8192) (n : Fin 11264) (k : Fin 4096) :
    cell A W S r.val n.val k.val
      = A (ix2 r k) * (FloatOps.sitofp (F := Ideal) .f32 (W (ix2 n k)) * S (ix2 n ⟨0, Nat.one_pos⟩)) := by
  unfold cell
  rw [dif_pos ⟨r.isLt, n.isLt, k.isLt⟩]

/-- The product, entry by entry. -/
def product (A : FVec Ideal SA .f32) (W : IVec SW 32) (S : FVec Ideal SC .f32) : FVec Ideal SR .f32 :=
  fun j => ∑ k : Fin 4096, cell A W S (j 0).val (j 1).val k.val

/-- The same sum taken in 32 consecutive blocks of 128 terms. -/
theorem product_blocks (A : FVec Ideal SA .f32) (W : IVec SW 32) (S : FVec Ideal SC .f32) (j : SR.Idx) :
    product A W S j = ∑ i ∈ Finset.range 32, ∑ kk : Fin 128, cell A W S (j 0).val (j 1).val (128 * i + kk.val) := by
  unfold product
  rw [Finset.sum_range]
  exact Cert.BlockSum.sum_blocks 32 128 (fun k => cell A W S (j 0).val (j 1).val k)

/-- What both programs are claimed to compute. -/
def linear (x : FVec Ideal SX .f32) (w : IVec SV 32) (s : FVec Ideal SL .f32) : FVec Ideal SO .f32 :=
  fun i => ∑ k : Fin 4096, x (ix3 ⟨(i 0).val, (i 0).isLt⟩ ⟨(i 1).val, (i 1).isLt⟩ k)
    * (FloatOps.sitofp (F := Ideal) .f32 (w (ix2 ⟨(i 2).val, (i 2).isLt⟩ k)) * s (ix1 ⟨(i 2).val, (i 2).isLt⟩))

/-- The product at row `2048 * b + t` and a column below 11008 is `linear` at `(b, t, n)`, when `A` holds `x` with its
    leading axes merged and `W`, `S` hold `w`, `s` on their first 11008 rows. -/
theorem product_eq_linear (A : FVec Ideal SA .f32) (W : IVec SW 32) (S : FVec Ideal SC .f32)
    (x : FVec Ideal SX .f32) (w : IVec SV 32) (s : FVec Ideal SL .f32)
    (hA : ∀ (b : Fin 4) (t : Fin 2048) (k : Fin 4096) (r : Fin 8192), r.val = 2048 * b.val + t.val → A (ix2 r k) = x (ix3 b t k))
    (hW : ∀ (n : Fin 11008) (k : Fin 4096) (n' : Fin 11264), n'.val = n.val → W (ix2 n' k) = w (ix2 n k))
    (hS : ∀ (n : Fin 11008) (n' : Fin 11264), n'.val = n.val → S (ix2 n' ⟨0, Nat.one_pos⟩) = s (ix1 n))
    (b : Fin 4) (t : Fin 2048) (n : Fin 11008) (r : Fin 8192) (n' : Fin 11264) (hr : r.val = 2048 * b.val + t.val) (hn : n'.val = n.val) :
    product A W S (ix2 r n') = linear x w s (ix3 b t n) := by
  unfold product linear
  refine Finset.sum_congr rfl fun k _ => ?_
  refine (cell_of_lt A W S r n' k).trans ?_
  rw [hA b t k r hr, hW n k n' hn, hS n n' hn]

end Cert.LinearSpec

end
-- ==== Proof.Accum.lean ====
/-
  The running total across the grid. Within a run of 32 consecutive points (one row tile and one column tile, the
  reduction step going 0 … 31) the scratch block starts from zero and every point adds its own 128 products to each
  entry; so after the point at step `j` the entry `(p, q)` holds the sum of the first `j + 1` blocks of products of
  row `2048 * (t / 32 / 11) + p` of the activations with row `1024 * (t / 32 % 11) + q` of the scaled weights, and at the
  last step (`t % 32 = 31`), where the total is copied into the output block, it holds all 32 blocks: the whole
  product at that row and column (`Cert.LinearSpec.product`).
-/
import proofs.«115999_j91147795955912_1_alg».proof.Proof.Pieces
import proofs.«115999_j91147795955912_1_alg».proof.Proof.Payload
import proofs.«115999_j91147795955912_1_alg».proof.Proof.Blocks
import proofs.«115999_j91147795955912_1_alg».proof.Proof.Spec

set_option maxRecDepth 16384

noncomputable section

open Idealize.ShloMosaic Idealize.ShloMosaic.TcCoe Idealize.SL.Sem Idealize.ShloMosaic.ValueIdx

namespace Cert.KernelIdeal.Linear

open Cert.KernelIdeal Cert.KernelIdeal.Gen Cert.LinearSpec

variable (m : (ℓ : Loc nD τ sig) → Buf (Elt Ideal) ℓ)

/-- The three arrays the region is handed: the activations with their leading axes merged, the weights and the scale
    column, both extended by 256 rows. -/
abbrev arrA (c : Dev nD) : FVec Ideal SA .f32 := V m c main_v0
abbrev arrW (c : Dev nD) : IVec SW 32 := V m c main_v1
abbrev arrS (c : Dev nD) : FVec Ideal SC .f32 := V m c main_v3

/-- What point `n` adds to entry `j` of the running total: its 128 products. -/
def addend (c : Dev nD) (n : ℕ) (j : S2048x1024.Idx) : EReal :=
  ∑ kk : Fin 128, cell (arrA m c) (arrW m c) (arrS m c)
    (2048 * (n / 32 / 11) + (j 0).val) (1024 * (n / 32 % 11) + (j 1).val) (128 * (n % 32) + kk.val)

/-- The step at point `t`, over any previous total: each entry grows by the point's addend. -/
theorem step_at (c : Dev nD) (t : Fin cfg0.N) (acc : Vec Ideal S2048x1024 .f32) (j : S2048x1024.Idx) :
    k0_pay2 (iblk m c 0 t) (iblk m c 1 t) (iblk m c 2 t) acc j = acc j + addend m c t.val j := by
  obtain ⟨p, q, rfl⟩ : ∃ (p : Fin 2048) (q : Fin 1024), j = ix2 p q := ⟨j 0, j 1, eq_ix2 j⟩
  refine (step_apply (iblk m c 0 t) (iblk m c 1 t) (iblk m c 2 t) acc p q).trans ?_
  refine congrArg (acc (ix2 p q) + ·) (Finset.sum_congr rfl fun kk _ => ?_)
  have ht : t.val < 1408 := lt_of_lt_of_eq t.isLt N_0
  have hr : 2048 * (t.val / 32 / 11) + p.val < 8192 := by have := p.isLt; omega
  have hn : 1024 * (t.val / 32 % 11) + q.val < 11264 := by have := q.isLt; omega
  have hk : 128 * (t.val % 32) + kk.val < 4096 := by have := kk.isLt; omega
  have e0 := x_entry m c t p kk ⟨_, hr⟩ ⟨_, hk⟩ rfl rfl
  have e1 := w_entry m c t q kk ⟨_, hn⟩ ⟨_, hk⟩ rfl rfl
  have e2 := s_entry m c t q ⟨_, hn⟩ rfl
  rw [e0, e1, e2]
  exact (cell_of_lt (arrA m c) (arrW m c) (arrS m c) ⟨_, hr⟩ ⟨_, hn⟩ ⟨_, hk⟩).symm

/-- The scratch block after point `n`. -/
abbrev total (c : Dev nD) (n : ℕ) (h : n < cfg0.N) : Vec Ideal S2048x1024 .f32 := (outsAt0 m c n h).2

/-- At the first point of a run the scratch is one step over the zero block. -/
theorem total_first (c : Dev nD) (n : ℕ) (h : n < cfg0.N) (h0 : n % 32 = 0) :
    total m c n h = k0_pay2 (iblk m c 0 ⟨n, h⟩) (iblk m c 1 ⟨n, h⟩) (iblk m c 2 ⟨n, h⟩) (k0_pay1 (F := Ideal)) := by
  have h1 : ¬(⟨n, h⟩ : Fin cfg0.N).val % 32 = 31 := by dsimp only; omega
  show (outsAt0 m c (⟨n, h⟩ : Fin cfg0.N).val (⟨n, h⟩ : Fin cfg0.N).isLt).2 = _
  rw [outsAt0_A m c ⟨n, h⟩ h0 h1]
  dsimp only
  exact scratch_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩)

/-- At every other point it is one step over what the point before left. -/
theorem total_next (c : Dev nD) (n : ℕ) (h : n + 1 < cfg0.N) (h0 : ¬(n + 1) % 32 = 0) :
    total m c (n + 1) h = k0_pay2 (iblk m c 0 ⟨n + 1, h⟩) (iblk m c 1 ⟨n + 1, h⟩) (iblk m c 2 ⟨n + 1, h⟩) (total m c n (Nat.lt_of_succ_lt h)) := by
  show (outsAt0 m c (⟨n + 1, h⟩ : Fin cfg0.N).val (⟨n + 1, h⟩ : Fin cfg0.N).isLt).2 = _
  by_cases h1 : (n + 1) % 32 = 31
  · rw [outsAt0_C m c ⟨n + 1, h⟩ h0 h1]
    dsimp only
    exact scratch_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2
  · rw [outsAt0_B m c ⟨n + 1, h⟩ h0 h1]
    dsimp only
    exact scratch_mid (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2

/-- At the last point of a run the output block holds the same value as the scratch. -/
theorem out_eq_total (c : Dev nD) (t : Fin cfg0.N) (h31 : t.val % 32 = 31) :
    (outsAt0 m c t.val t.isLt).1 = total m c t.val t.isLt := by
  have h0 : ¬t.val % 32 = 0 := by omega
  show (outsAt0 m c t.val t.isLt).1 = (outsAt0 m c t.val t.isLt).2
  rw [outsAt0_C m c t h0 h31]
  dsimp only
  exact (out_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h31) (iblk m c 0 t) (iblk m c 1 t) (iblk m c 2 t) (outsAt0 m c (t.val - 1) (Nat.lt_of_le_of_lt (Nat.sub_le _ _) t.isLt)).2).trans
    (scratch_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h31) (iblk m c 0 t) (iblk m c 1 t) (iblk m c 2 t) (outsAt0 m c (t.val - 1) (Nat.lt_of_le_of_lt (Nat.sub_le _ _) t.isLt)).2).symm

/-- The first step of a run, and a later step, as functions of the point. -/
abbrev firstStep (c : Dev nD) (n : ℕ) (h : n < cfg0.N) : Vec Ideal S2048x1024 .f32 :=
  k0_pay2 (iblk m c 0 ⟨n, h⟩) (iblk m c 1 ⟨n, h⟩) (iblk m c 2 ⟨n, h⟩) (k0_pay1 (F := Ideal))
abbrev laterStep (c : Dev nD) (n : ℕ) (h : n < cfg0.N) (acc : Vec Ideal S2048x1024 .f32) : Vec Ideal S2048x1024 .f32 :=
  k0_pay2 (iblk m c 0 ⟨n, h⟩) (iblk m c 1 ⟨n, h⟩) (iblk m c 2 ⟨n, h⟩) acc

/-- So the scratch after point `t` is the fold of the steps over `t`'s run up to `t`. -/
theorem total_fold (c : Dev nD) (t : Fin cfg0.N) (h' : 32 * (t.val / 32) + t.val % 32 < cfg0.N) :
    total m c t.val t.isLt = Pipeline.accAt (N := cfg0.N) (firstStep m c) (laterStep m c) (32 * (t.val / 32)) (t.val % 32) h' :=
  Pipeline.eq_accAt_of_mod (α := Vec Ideal S2048x1024 .f32) (N := cfg0.N) (total m c) 32 (firstStep m c) (laterStep m c)
    (fun n h h0 => total_first m c n h h0) (fun n h h0 => total_next m c n h h0) (by decide) t.val t.isLt h'

/-- After point `t` the scratch holds, at every entry, the addends of the points of `t`'s run up to `t`. -/
theorem total_eq (c : Dev nD) (t : Fin cfg0.N) (j : S2048x1024.Idx) :
    total m c t.val t.isLt j = ∑ s ∈ Finset.range (t.val % 32 + 1), addend m c (32 * (t.val / 32) + s) j := by
  have h' : 32 * (t.val / 32) + t.val % 32 < cfg0.N := by rw [Nat.div_add_mod]; exact t.isLt
  have hlt : t.val % 32 ≤ 31 := by omega
  rw [total_fold m c t h']
  refine (Pipeline.accAt_add_apply (N := cfg0.N) (ι := S2048x1024.Idx) (β := EReal) (firstStep m c) (laterStep m c)
    (fun _ => (0 : EReal)) (fun n i => addend m c n i) (32 * (t.val / 32)) 31
    (fun h i => (step_at m c ⟨_, h⟩ (k0_pay1 (F := Ideal)) i).trans (congrArg (· + addend m c (32 * (t.val / 32)) i) (zero_apply i)))
    (fun n h acc i _ _ => step_at m c ⟨n, h⟩ acc i)
    (t.val % 32) hlt h' j).trans ?_
  exact zero_add _

end Cert.KernelIdeal.Linear

end
-- ==== Proof.Region.lean ====
/-
  The array the region leaves behind. The output block of row tile `I` and column tile `J` is written back once, by the
  last point of its run (`t % 32 = 31`), where it holds the whole sum of 4096 products for each of its 2048 x 1024
  entries. These 4 x 11 blocks tile the 8192 x 11264 array, so the array ends holding the product
  `Cert.LinearSpec.product` of the three arrays the region was handed — at every entry, the appended columns included.
-/
import proofs.«115999_j91147795955912_1_alg».proof.Proof.Accum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Linear

open Cert.KernelIdeal Cert.KernelIdeal.Gen Cert.LinearSpec

variable (m : (ℓ : Loc nD τ sig) → Buf (Elt Ideal) ℓ)

/-- The product of the arrays the region is handed. -/
abbrev regionOut (c : Dev nD) : FVec Ideal SR .f32 := product (arrA m c) (arrW m c) (arrS m c)

/-- What a point that writes its output block back writes: that block of the product. -/
theorem flushed_eq (c : Dev nD) (t : Fin cfg0.N) (hf : (cfg0.win 3).flush t = true) :
    (dats m 0 c).flushed 3 t = ((cfg0.win 3).blk t).view.read (Elt Ideal) (regionOut m c) := by
  have h31 : t.val % 32 = 31 := (flush0_3 t).mp hf
  have ht : t.val < 1408 := lt_of_lt_of_eq t.isLt N_0
  show (cfg0.win 3).cut (grid0.coords t) ((dats m 0 c).after 3 t) = _
  rw [after0_3, out_eq_total m c t h31]
  funext y
  obtain ⟨p, q, rfl⟩ : ∃ (p : Fin 2048) (q : Fin 1024), y = ix2 p q := ⟨y 0, y 1, eq_ix2 y⟩
  show total m c t.val t.isLt (ix2 p q) = regionOut m c (((cfg0.win 3).blk t).view.emb (ix2 p q))
  rw [total_eq m c t (ix2 p q), h31, show (31 + 1 : ℕ) = 32 from rfl]
  refine Eq.trans ?_ (product_blocks (arrA m c) (arrW m c) (arrS m c) (((cfg0.win 3).blk t).view.emb (ix2 p q))).symm
  obtain ⟨-, -, -, -, -, -, e0, e1⟩ := tile_of_point t
  refine Finset.sum_congr rfl fun s hs => ?_
  have hs' : s < 32 := Finset.mem_range.mp hs
  unfold addend
  refine Finset.sum_congr rfl fun kk _ => ?_
  have ea : 2048 * ((32 * (t.val / 32) + s) / 32 / 11) + p.val = ((((cfg0.win 3).blk t).view.emb (ix2 p q)) 0).val := by
    show _ = win0_3.index t (0 : Fin 2) * 2048 + 1 * p.val
    rw [e0]; omega
  have eb : 1024 * ((32 * (t.val / 32) + s) / 32 % 11) + q.val = ((((cfg0.win 3).blk t).view.emb (ix2 p q)) 1).val := by
    show _ = win0_3.index t (1 : Fin 2) * 1024 + 1 * q.val
    rw [e1]; omega
  have ec : 128 * ((32 * (t.val / 32) + s) % 32) + kk.val = 128 * s + kk.val := by omega
  show cell _ _ _ (2048 * ((32 * (t.val / 32) + s) / 32 / 11) + p.val) (1024 * ((32 * (t.val / 32) + s) / 32 % 11) + q.val)
    (128 * ((32 * (t.val / 32) + s) % 32) + kk.val) = _
  rw [ea, eb, ec]

/-- An entry of the array lies in point `t`'s output block iff each coordinate lies in the block's range. -/
theorem mem_block (t : Fin cfg0.N) (i : S8192x11264.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v4).slice (win0_3.rect t)).set ↔ _
  rw [View.set_slice_whole, Rect.mem_set_unit]
  exact Iff.rfl

/-- Every entry lies in the block some writing point writes: the last point of the run of its row and column tile. -/
theorem covered (i : S8192x11264.Idx) :
    ∃ t : Fin cfg0.N, (cfg0.win 3).flush t = true ∧ i ∈ ((cfg0.win 3).blk t).view.set := by
  have hN : cfg0.N = 1408 := N_0
  have hi0 : (i 0).val < 8192 := (i 0).isLt
  have hi1 : (i 1).val < 11264 := (i 1).isLt
  have hlt : ((i 0).val / 2048 * 11 + (i 1).val / 1024) * 32 + 31 < cfg0.N := by rw [hN]; omega
  refine ⟨⟨((i 0).val / 2048 * 11 + (i 1).val / 1024) * 32 + 31, hlt⟩, (flush0_3 _).mpr (by dsimp only; omega), ?_⟩
  rw [mem_block]
  obtain ⟨-, -, -, -, -, -, e0, e1⟩ := tile_of_point ⟨((i 0).val / 2048 * 11 + (i 1).val / 1024) * 32 + 31, hlt⟩
  dsimp only at e0 e1
  intro a
  match a with
  | ⟨0, _⟩ =>
    show win0_3.index ⟨((i 0).val / 2048 * 11 + (i 1).val / 1024) * 32 + 31, hlt⟩ (0 : Fin 2) * 2048 ≤ (i 0).val
      ∧ (i 0).val < win0_3.index ⟨((i 0).val / 2048 * 11 + (i 1).val / 1024) * 32 + 31, hlt⟩ (0 : Fin 2) * 2048 + 2048
    rw [e0]; omega
  | ⟨1, _⟩ =>
    show win0_3.index ⟨((i 0).val / 2048 * 11 + (i 1).val / 1024) * 32 + 31, hlt⟩ (1 : Fin 2) * 1024 ≤ (i 1).val
      ∧ (i 1).val < win0_3.index ⟨((i 0).val / 2048 * 11 + (i 1).val / 1024) * 32 + 31, hlt⟩ (1 : Fin 2) * 1024 + 1024
    rw [e1]; omega

/-- The region's array after the run. -/
theorem region_final (c : Dev nD) : (dats m 0 c).arrAt 3 cfg0.N = regionOut m c :=
  (dats m 0 c).arrAt_eq_of_cover 3 (regionOut m c) (flushed_eq m c) covered

end Cert.KernelIdeal.Linear

end
-- ==== Proof.Prefix.lean ====
/-
  The arrays the region is handed, in terms of the program's arguments. Before the launch the host merges the two
  leading axes of the activations `x` (4 x 2048 x 4096 becomes 8192 x 4096: row `2048 * b + t` is `x (b, t, ·)`), appends
  256 rows of the integer zero to the weights `w` (11008 x 4096 becomes 11264 x 4096) and 256 entries `float 0` to the
  scales `s`, which it then turns into a column (11264 x 1). So at a row below 11008 the extended weights and scales are
  `w` and `s` themselves.
-/
import proofs.«115999_j91147795955912_1_alg».proof.Proof.Gen.KernelIdeal.Frame
import Idealize.ShloMosaic.Lib.Pipeline.Value
import Idealize.ShloMosaic.Lib.ValueIdx
import Idealize.ShloMosaic.Lib.KernelVsHost
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Linear

open Cert.KernelIdeal Cert.KernelIdeal.Gen

variable {F : FTy → Type} [FloatOps F]
variable (m : (ℓ : Loc nD τ sig) → Buf (Elt F) ℓ)

/-- The activations with their leading axes merged. -/
theorem merged_eq (c : Dev nD) : (V m c main_v0 : S8192x4096.Idx → Elt F .f32)
    = shapeCast S8192x4096 (m ((c : Thread nD τ).loc main_arg0)) shapeCasts_S4x2048x4096_S8192x4096 := by
  dsimp only [V, V0]
  simp only [hostOps0, hostOps0_1, hostOps0_2, hostOps0_3, hostOps0_4, List.flatten_cons, List.flatten_nil, List.append_nil, List.cons_append, List.nil_append]
  after_results
  rfl

/-- The weights extended by 256 zero rows. -/
theorem extendedW_eq (c : Dev nD) : (V m c main_v1 : S11264x4096.Idx → Elt F .i32)
    = pad S11264x4096 ![0, 0] ![256, 0] ![0, 0] (m ((c : Thread nD τ).loc main_arg1)) (constantI S_ 32 0#32)
        pads_S11008x4096_S11264x4096_02560_000 h_S_ := by
  dsimp only [V, V0]
  simp only [hostOps0, hostOps0_1, hostOps0_2, hostOps0_3, hostOps0_4, List.flatten_cons, List.flatten_nil, List.append_nil, List.cons_append, List.nil_append]
  after_results
  rfl

/-- The scales extended by 256 entries and turned into a column. -/
theorem extendedS_eq (c : Dev nD) : (V m c main_v3 : S11264x1.Idx → Elt F .f32)
    = shapeCast S11264x1 (pad S11264 ![0] ![256] ![0] (m ((c : Thread nD τ).loc main_arg2))
        (sitofp (F := F) .f32 (constantI S_ 32 0#32)) pads_S11008_S11264_02560 h_S_) shapeCasts_S11264_S11264x1 := by
  dsimp only [V, V0]
  simp only [hostOps0, hostOps0_1, hostOps0_2, hostOps0_3, hostOps0_4, List.flatten_cons, List.flatten_nil, List.append_nil, List.cons_append, List.nil_append]
  after_results
  rfl

/-- Row `2048 * b + t` of the merged activations is `x (b, t, ·)`. -/
theorem merged_apply (c : Dev nD) (b : Fin 4) (t : Fin 2048) (k : Fin 4096) (r : Fin 8192) (hr : r.val = 2048 * b.val + t.val) :
    (V m c main_v0 : S8192x4096.Idx → Elt F .f32) (ix2 r k) = (m ((c : Thread nD τ).loc main_arg0) : S4x2048x4096.Idx → Elt F .f32) (ix3 b t k) := by
  rw [merged_eq]
  refine shapeCast_apply _ shapeCasts_S4x2048x4096_S8192x4096 (ix2 r k) (ix3 b t k) ?_
  rw [Shape.rowMajor_val_three, Shape.rowMajor_val_two]
  show (b.val * 2048 + t.val) * 4096 + k.val = r.val * 4096 + k.val
  rw [hr]; ring

/-- A row of the extended weights below 11008 is the weights' row. -/
theorem extendedW_apply (c : Dev nD) (n : Fin 11008) (k : Fin 4096) (n' : Fin 11264) (hn : n'.val = n.val) :
    (V m c main_v1 : S11264x4096.Idx → Elt F .i32) (ix2 n' k) = (m ((c : Thread nD τ).loc main_arg1) : S11008x4096.Idx → Elt F .i32) (ix2 n k) := by
  rw [extendedW_eq]
  refine pad_apply_of_inside _ _ _ _ _ pads_S11008x4096_S11264x4096_02560_000 h_S_ (ix2 n' k) (ix2 n k) (fun a => ?_)
  match a with
  | ⟨0, _⟩ => show n'.val = 0 + n.val * (0 + 1); omega
  | ⟨1, _⟩ => show k.val = 0 + k.val * (0 + 1); omega

/-- An entry of the scale column below 11008 is the scale. -/
theorem extendedS_apply (c : Dev nD) (n : Fin 11008) (n' : Fin 11264) (hn : n'.val = n.val) :
    (V m c main_v3 : S11264x1.Idx → Elt F .f32) (ix2 n' ⟨0, Nat.one_pos⟩) = (m ((c : Thread nD τ).loc main_arg2) : S11008.Idx → Elt F .f32) (ix1 n) := by
  rw [extendedS_eq]
  refine (shapeCast_apply _ shapeCasts_S11264_S11264x1 (ix2 n' ⟨0, Nat.one_pos⟩) (ix1 n') ?_).trans ?_
  · rw [Shape.rowMajor_val_one, Shape.rowMajor_val_two]
    show n'.val = n'.val * 1 + 0
    omega
  · refine pad_apply_of_inside _ _ _ _ _ pads_S11008_S11264_02560 h_S_ (ix1 n') (ix1 n) (fun a => ?_)
    match a with
    | ⟨0, _⟩ => show n'.val = 0 + n.val * (0 + 1); omega

end Cert.KernelIdeal.Linear

end
-- ==== Proof.KernelRun.lean ====
/-
  The whole kernel program, read. After the region the host keeps the first 11008 columns of the 8192 x 11264 array and
  splits the rows back into 4 x 2048: the result's entry `(b, t, n)` is the region's entry `(2048 * b + t, n)`, the product
  there, which over the program's own arguments is
      ∑ k < 4096, x (b, t, k) * (float (w (n, k)) * s n)
  (`Cert.LinearSpec.linear`), because row `2048 * b + t` of the merged activations is `x (b, t, ·)` and, below row 11008,
  the extended weights and scales are the weights and scales. So every execution of the program ends with its result at
  `linear` of its arguments, and the arguments unchanged.
-/
import proofs.«115999_j91147795955912_1_alg».proof.Proof.Region
import proofs.«115999_j91147795955912_1_alg».proof.Proof.Prefix

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Linear

open Cert.KernelIdeal Cert.KernelIdeal.Gen Cert.LinearSpec

variable (m : (ℓ : Loc nD τ sig) → Buf (Elt Ideal) ℓ) (ρ : Dev nD → PrngReg)

/-- What the host lines after the region leave in the result: the kept columns of the region's array, the rows split. -/
theorem tail_eq (c : Dev nD) :
    (Pipeline.afterTail₀ cfgs (dats m) 0 (V0 m) [hostOps1] c main_v6 : S4x2048x11008.Idx → Elt Ideal .f32)
      = shapeCast S4x2048x11008 (extractStridedSlice S8192x11008 ![0, 0] (regionOut m c) slices_S8192x11264_S8192x11008_0_0)
          shapeCasts_S8192x11008_S4x2048x11008 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.tc.devRef main_v4)
      = regionOut m c :=
    (Pipeline.withArrays_arr spec0 launch0.win.arr_inj c (V0 m c) (fun w => (dats m 0 c).arrAt w (cfgs 0).N) 3).trans (region_final m c)
  rw [hw]
  rfl

/-- The result, entry by entry, over the program's arguments. -/
theorem result_eq (c : Dev nD) :
    (Pipeline.afterTail₀ cfgs (dats m) 0 (V0 m) [hostOps1] c main_v6 : S4x2048x11008.Idx → Elt Ideal .f32)
      = linear (m ((c : Thread nD τ).loc main_arg0)) (m ((c : Thread nD τ).loc main_arg1)) (m ((c : Thread nD τ).loc main_arg2)) := by
  rw [tail_eq]
  funext i
  obtain ⟨b, t, n, rfl⟩ : ∃ (b : Fin 4) (t : Fin 2048) (n : Fin 11008), i = ix3 b t n := ⟨i 0, i 1, i 2, eq_ix3 i⟩
  have hr : 2048 * b.val + t.val < 8192 := by have := b.isLt; have := t.isLt; omega
  have hn : n.val < 11264 := by have := n.isLt; omega
  refine (shapeCast_apply _ shapeCasts_S8192x11008_S4x2048x11008 (ix3 b t n) (ix2 ⟨2048 * b.val + t.val, hr⟩ n) ?_).trans ?_
  · rw [Shape.rowMajor_val_two, Shape.rowMajor_val_three]
    show (2048 * b.val + t.val) * 11008 + n.val = (b.val * 2048 + t.val) * 11008 + n.val
    ring
  refine (extractStridedSlice_apply ![0, 0] _ slices_S8192x11264_S8192x11008_0_0 (ix2 ⟨2048 * b.val + t.val, hr⟩ n)
    (ix2 ⟨2048 * b.val + t.val, hr⟩ ⟨n.val, hn⟩) (fun a => ?_)).trans ?_
  · match a with
    | ⟨0, _⟩ => show 2048 * b.val + t.val = 0 + (2048 * b.val + t.val); omega
    | ⟨1, _⟩ => show n.val = 0 + n.val; omega
  exact product_eq_linear (arrA m c) (arrW m c) (arrS m c) _ _ _
    (fun b t k r hr => merged_apply m c b t k r hr) (fun n k n' hn => extendedW_apply m c n k n' hn)
    (fun n n' hn => extendedS_apply m c n n' hn) b t n ⟨2048 * b.val + t.val, hr⟩ ⟨n.val, hn⟩ rfl rfl

/-- The run, read: every weakly fair execution terminates without a fault, with the result at `linear` of the arguments
    and the arguments as they were. -/
theorem run : θ_run defs (onTc (τ := τ) (main (F := Ideal))) ⟨m, fun _ => 0, ρ⟩ fun r => ∀ c : Dev nD,
      r.2.mem ((c.tc : Thread nD τ).loc main_v6)
        = linear (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Linear

end
-- ==== Proof.RefSide.lean ====
/-
  The reference program, read: it turns the weights into floats, multiplies row `n` by the scale `s n`, and contracts the
  depth axis of the activations with the depth axis of that — at entry `(b, t, n)`, over the extended reals,
      ∑ k < 4096, x (b, t, k) * (float (w (n, k)) * s n),
  which is `Cert.LinearSpec.linear` term for term.
-/
import proofs.«115999_j91147795955912_1_alg».proof.Proof.Gen.ReferenceIdeal.Read
import proofs.«115999_j91147795955912_1_alg».proof.Proof.Spec

noncomputable section

open Idealize.ShloMosaic Idealize.ShloMosaic.ValueIdx

namespace Cert.ReferenceIdeal.Linear

open Cert.ReferenceIdeal Cert.ReferenceIdeal.Gen Cert.ReferenceIdeal.Read Cert.LinearSpec

/-- The activation read by the contraction at depth `k` is `x (b, t, k)`; -/
theorem lhs_index (i : S4x2048x11008.Idx) (k : Fin 4096) :
    lidx_main_v4 i k = ix3 ⟨(i 0).val, (i 0).isLt⟩ ⟨(i 1).val, (i 1).isLt⟩ k :=
  funext fun a => Fin.ext (by match a with | ⟨0, _⟩ => rfl | ⟨1, _⟩ => rfl | ⟨2, _⟩ => rfl)

/-- the weight is `w (n, k)`; -/
theorem rhs_index (i : S4x2048x11008.Idx) (k : Fin 4096) : ridx_main_v4 i k = ix2 ⟨(i 2).val, (i 2).isLt⟩ k :=
  funext fun a => Fin.ext (by match a with | ⟨0, _⟩ => rfl | ⟨1, _⟩ => rfl)

/-- and the scale, spread first to a column and then along the row, is `s n`. -/
theorem scale_index (i : S4x2048x11008.Idx) (k : Fin 4096) :
    idx_main_v1 (idx_main_v2 (ridx_main_v4 i k)) = ix1 ⟨(i 2).val, (i 2).isLt⟩ :=
  funext fun a => Fin.ext (by match a with | ⟨0, _⟩ => rfl)

/-- The reference's result is `linear` of its arguments. -/
theorem reference_eq (x : (⟨S4x2048x4096, .f32⟩ : BufTy).Contents (Elt Ideal)) (w : (⟨S11008x4096, .i32⟩ : BufTy).Contents (Elt Ideal))
    (s : (⟨S11008, .f32⟩ : BufTy).Contents (Elt Ideal)) :
    val_main_v4 (F := Ideal) x w s = linear x w s := by
  funext i
  rw [val_main_v4_apply]
  unfold linear
  refine Finset.sum_congr rfl fun k _ => ?_
  rw [val_main_v3_apply, val_main_v0_apply, val_main_v2_apply, val_main_v1_apply, scale_index i k, lhs_index i k, rhs_index i k]
  rfl

end Cert.ReferenceIdeal.Linear

end
-- ==== Proof.lean ====
/-
  A dense layer with integer weights and one scale per output channel,
      y (b, t, n) = ∑ k < 4096, x (b, t, k) * (float (w (n, k)) * s n),
  computed two ways. The reference forms the scaled weights and contracts the depth axis in one operation. The kernel
  merges the two leading axes of `x`, appends 256 zero rows to `w` and `s`, and runs a 4 x 11 x 32 grid: row tile, column
  tile, and 32 reduction steps of 128 depths each, a scratch block carrying the running total — zeroed at step 0, one
  block of 128 products added to every entry at each step, copied to the output at step 31 —; afterwards the appended
  columns are dropped and the rows split again.

  Over the extended reals a change of float format is the identity and the matrix unit's product into a zero accumulator
  is the plain sum, so the kernel's entry is the same 4096 products added in 32 groups of 128. A finite sum regrouped is
  the same sum in any commutative additive monoid, so the two results agree at every input, infinite entries included:
  the precondition is never opened. The appended rows only reach columns that are dropped.

  The modules: `LibBlockSum` (a sum cut into consecutive blocks), `Spec` (the product, its 32 blocks, the claimed
  result), `Pieces` (what one grid point leaves, as values), `Payload` (one step at an entry), `Blocks` (where a point's
  blocks sit), `Accum` (the running total across a run of points), `Region` (the region's final array), `Prefix` (the
  arrays the host hands the region), `KernelRun` (the kernel program's run), `RefSide` (the reference's result).
  The ideal pass rewrote nothing, so the idealized kernel is the kernel's own text.
-/
import proofs.«115999_j91147795955912_1_alg».proof.Defs
import proofs.«115999_j91147795955912_1_alg».proof.Proof.Gen.Kernel
import proofs.«115999_j91147795955912_1_alg».proof.Proof.Gen.Kernel.Frame
import proofs.«115999_j91147795955912_1_alg».proof.Proof.Gen.KernelIdeal
import proofs.«115999_j91147795955912_1_alg».proof.Proof.Gen.KernelIdeal.Frame
import proofs.«115999_j91147795955912_1_alg».proof.Proof.Gen.ReferenceIdeal
import proofs.«115999_j91147795955912_1_alg».proof.Proof.Gen.ReferenceIdeal.Run
import proofs.«115999_j91147795955912_1_alg».proof.Proof.Gen.ReferenceIdeal.Read
import proofs.«115999_j91147795955912_1_alg».proof.Proof.Gen.Pre_finite_inputs
import proofs.«115999_j91147795955912_1_alg».proof.Proof.KernelRun
import proofs.«115999_j91147795955912_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the three arguments, both programs end with `linear` of them. -/
theorem algebraic : Cert.algebraic_KernelIdeal_ReferenceIdeal := by
  intro m ρ m' ρ' _ hagree
  refine ⟨fun c => Cert.LinearSpec.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Linear.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Linear.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
